-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S32x50000x128 : Shape := ⟨3, ![32, 50000, 128]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S32x50000x128 : S_.BroadcastsInDim S32x50000x128 (![] : Fin 0 → Fin S32x50000x128.rank)
  reducesTo_S32x50000x128_S_d0_1_2 : S32x50000x128.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S32x50000x128 .f32) (main_arg2 : FVec F S128x256 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S32x50000x128 .f32 := Host.absf main_arg1
  let main_cst_0 : FVec F S_ .f32 := constant S_ .f32 0x7F800000#32
  let main_v5 : FVec F S32x50000x128 .f32 := broadcastInDim S32x50000x128 ![] bcast_S_S32x50000x128 main_cst_0
  let main_v6 : IVec S32x50000x128 1 := cmpf .olt main_v4 main_v5
  let main_c_1 : IVec S_ 1 := constantI S_ 1 1#1
  let main_v7 : IVec S_ 1 := (fun x v => Host.reduce IntOp.andi x v reducesTo_S32x50000x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S32x50000x128 : Shape := ⟨3, ![32, 50000, 128]⟩
abbrev S128x256 : Shape := ⟨2, ![128, 256]⟩
abbrev S128 : Shape := ⟨1, ![128]⟩
abbrev S128x128 : Shape := ⟨2, ![128, 128]⟩
abbrev S_ : Shape := ⟨0, ![]⟩
abbrev S1x128 : Shape := ⟨2, ![1, 128]⟩
abbrev S1000x128 : Shape := ⟨2, ![1000, 128]⟩
abbrev S32x1000x128 : Shape := ⟨3, ![32, 1000, 128]⟩
abbrev S1x1000x128 : Shape := ⟨3, ![1, 1000, 128]⟩

abbrev nBuf : Space → Nat
  | .hbm => 18
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S32x50000x128, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S32x1000x128, .f32⟩
  | .local _ .vmem, ⟨3, _⟩ => ⟨S32x1000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1000x128, .f32⟩
  | .local _ .vmem, ⟨8, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v19 : Index := Scalar.indexCast arg7
  let c0_12 : Index := 0#32
  let c0_13 : Index := 0#32
  ![v19.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x256_S128x128_0_0 : S128x256.Slices ![0, 0] S128x128
  slices_S128x256_S128x128_0_128 : S128x256.Slices ![0, 128] S128x128
  transposes_S128x128_S128x128_1_0 : S128x128.Transposes [1, 0] S128x128
  bcast_S_S128x128 : S_.BroadcastsInDim S128x128 (![] : Fin 0 → Fin S128x128.rank)
  bitsLt_bf16_f32 : FTy.bits .bf16 < FTy.bits .f32
  bcast_S_S128 : S_.BroadcastsInDim S128 (![] : Fin 0 → Fin S128.rank)
  shapeCasts_S128_S1x128 : S128.ShapeCasts S1x128
  h_S1x1000x128 : 0 < S1x1000x128.numel
  shapeCasts_S1x1000x128_S1000x128 : S1x1000x128.ShapeCasts S1000x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S1000x128_S128x128_S1000x128_1_0_0_1_n_n_wf : DotDims.WF S1000x128 S128x128 S1000x128 [1] [0] [0] [1] [] []
  hrank0 : 0 < grid0.rank
  k0_t1_ok : k0_t1_loop.OK
  k0_off1_inb : ∀ k0_t1 : Fin k0_t1_loop.trips, ∀ a, (k0_off1 k0_t1) a + S1x1000x128.size a ≤ S32x1000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1000x128.size a ≤ S32x50000x128.size a
  hwx0_1 : ∀ i : grid0.Coords, EltTy.bits .f32 = 32 ∨ (Rect.block (s := S32x50000x128) S32x1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S32x50000x128 : Shape := ⟨3, ![32, 50000, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1x50000x128 : Shape := ⟨3, ![1, 50000, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S32x50000x128, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S1x50000x128, .f32⟩
  | .hbm, ⟨12, _⟩ => ⟨S32x50000x128, .f32⟩
  | .hbm, ⟨13, _⟩ => ⟨S32x50000x128, .f32⟩
  | .hbm, ⟨14, _⟩ => ⟨S32x50000x128, .f32⟩
  | .hbm, ⟨15, _⟩ => ⟨S_, .f32⟩
  | .hbm, ⟨16, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  bcast_S1x50000x128_S32x50000x128_0_1_2 : S1x50000x128.BroadcastsInDim S32x50000x128 (![0, 1, 2] : Fin 3 → Fin S32x50000x128.rank)
  reducesTo_S32x50000x128_S50000x128_d0 : S32x50000x128.ReducesTo [0] S50000x128
  h_S_ : 0 < S_.numel
  dot_S50000x128_S128x128_S50000x128_1_0_0_1_n_n_wf : DotDims.WF S50000x128 S128x128 S50000x128 [1] [0] [0] [1] [] []
  dot_S32x50000x128_S128x128_S32x50000x128_2_1_01_0_n_n_wf : DotDims.WF S32x50000x128 S128x128 S32x50000x128 [2] [1] [0, 1] [0] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S32x50000x128_S128x128_S32x50000x128_2_1_01_0_n_n : DotDims S32x50000x128 S128x128 S32x50000x128 where
  lhsContracting := [2]
  rhsContracting := [1]
  lhsNonContracting := [0, 1]
  rhsNonContracting := [0]
  lhsBatch := []
  rhsBatch := []
  wf := dot_S32x50000x128_S128x128_S32x50000x128_2_1_01_0_n_n_wf

class Facts : Prop extends Facts₀ where

variable [Facts]
-- ==== Proof.NeighbourSum.lean ====
/-
  The kernel body's counted loop: 32 trips, trip k adding slab k of the tile's neighbour block [32, 1000, 128]
  onto the carried [1000, 128] value, starting from zero. So after the loop the carried value at (r, d) is the sum
  over k of the block at (k, r, d) — a sum of extended reals, for which only associativity and the neutral zero
  are used, so no finiteness is needed here.
-/
import proofs.«136095_j65068754534511_2_alg».proof.Proof.Gen.KernelIdeal.Loops
import Idealize.ShloMosaic.Lib.WholeRead
import Idealize.ShloMosaic.Lib.ValueIdx
import Idealize.ShloMosaic.Lib.ValueLayout
import Idealize.ShloMosaic.PureOps.Ideal.Laws

noncomputable section

namespace Cert.KernelIdeal.NeighbourSum

open Cert.KernelIdeal Cert.KernelIdeal.Gen Idealize.ShloMosaic Idealize.ShloMosaic.TcCoe Idealize.SL.Sem
open Idealize.ShloMosaic.ValueIdx

/-- A sequence that starts at zero and adds g k at step k is, after n steps, the sum of the first n terms. -/
theorem steps_eq_sum (s g : ℕ → EReal) (N : ℕ) (h0 : s 0 = 0) (hs : ∀ k, k < N → s (k + 1) = s k + g k) :
    ∀ n, n ≤ N → s n = ∑ k ∈ Finset.range n, g k
  | 0, _ => by rw [h0, Finset.range_zero, Finset.sum_empty]
  | n + 1, hn => by
    rw [hs n (by omega), steps_eq_sum s g N h0 hs n (by omega), Finset.sum_range_succ]

/-- The loop makes 32 trips. -/
theorem trips_eq : k0_t1_loop.trips = 32 := by decide

variable {F : FTy → Type} [FloatOps F]

/-- What one trip yields: the carried value plus the slab the trip loads (the trip's definition, opened once). -/
theorem trip_eq (𝒱 : Variants) (c : Dev nD) (bd : Option 𝒱.V) (i : grid0.Coords) (arg1 : Memref sig .tc .vmem S1000x128 .f32) (harg1 : arg1.IsWhole) (arg2 : Memref sig .tc .vmem S32x1000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1000x128 .f32) (harg6 : arg6.IsWhole)
    (X : BufTy.Contents (Elt F) arg2.view.ty) (k : Fin k0_t1_loop.trips) (acc : FVec F S1000x128 .f32) :
    tripR_k0_t1 (F := F) 𝒱 c bd i arg1 harg1 arg2 harg2 arg3 harg3 arg4 harg4 arg5 harg5 arg6 harg6 X k acc
      = k0_pay2 acc (View.readAt (Elt F) arg2.view (Rect.unit (s := S32x1000x128) (k0_off1 k) S1x1000x128.size (k0_off1_inb k)).toLoadRect X) := by
  unfold tripR_k0_t1 trip_k0_t1
  rfl

/-- Slab k of a block held whole in the staging buffer, read at (0, r, d), is the block at (k, r, d). -/
theorem slab_apply (arg2 : Memref sig .tc .vmem S32x1000x128 .f32) (harg2 : arg2.IsWhole) (x1 : Vec Ideal S32x1000x128 .f32)
    (k : Fin k0_t1_loop.trips) (r : Fin 1000) (d : Fin 128) :
    View.readAt (Elt Ideal) arg2.view (Rect.unit (s := S32x1000x128) (k0_off1 k) S1x1000x128.size (k0_off1_inb k)).toLoadRect
        (harg2.unread x1) (ix3 (0 : Fin 1) r d)
      = x1 (ix3 (⟨k.val, Nat.lt_of_lt_of_le k.isLt k0_t1_abs.2.1⟩ : Fin 32) r d) := by
  rw [harg2.readAt_unread]
  refine congrArg x1 (funext fun a => Fin.ext ?_)
  have hk := congrFun (k0_off1_eq k)
  match a with
  | ⟨0, _⟩ => show k0_off1 k 0 + 1 * 0 = k.val; rw [hk]; rfl
  | ⟨1, _⟩ => show k0_off1 k 1 + 1 * r.val = r.val; rw [hk]; show 0 + 1 * r.val = r.val; omega
  | ⟨2, _⟩ => show k0_off1 k 2 + 1 * d.val = d.val; rw [hk]; show 0 + 1 * d.val = d.val; omega

/-- One trip at an entry: the carried entry plus the block's entry in slab k. -/
theorem pay2_apply (acc : FVec Ideal S1000x128 .f32) (v20 : Vec Ideal S1x1000x128 .f32) (r : Fin 1000) (d : Fin 128) :
    k0_pay2 acc v20 (ix2 r d) = acc (ix2 r d) + v20 (ix3 (0 : Fin 1) r d) := by
  unfold k0_pay2
  show acc (ix2 r d) + shapeCast S1000x128 v20 shapeCasts_S1x1000x128_S1000x128 (ix2 r d) = _
  rw [shapeCast_1ab_ab_apply]

/-- AFTER THE LOOP the carried value at (r, d) is the sum over the 32 slabs of the block's entries (k, r, d). -/
theorem loop_apply (c : Dev nD) (i : grid0.Coords) (arg1 : Memref sig .tc .vmem S1000x128 .f32) (harg1 : arg1.IsWhole) (arg2 : Memref sig .tc .vmem S32x1000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1000x128 .f32) (harg6 : arg6.IsWhole)
    (x1 : Vec Ideal S32x1000x128 .f32) (r : Fin 1000) (d : Fin 128) :
    st_k0_t1 (F := Ideal) Variants.none c none i arg1 harg1 arg2 harg2 arg3 harg3 arg4 harg4 arg5 harg5 arg6 harg6 (harg2.unread x1) k0_pay1 32 (ix2 r d)
      = ∑ k : Fin 32, x1 (ix3 k r d) := by
  have hstep : ∀ k, k < 32 →
      st_k0_t1 (F := Ideal) Variants.none c none i arg1 harg1 arg2 harg2 arg3 harg3 arg4 harg4 arg5 harg5 arg6 harg6 (harg2.unread x1) k0_pay1 (k + 1) (ix2 r d)
        = st_k0_t1 (F := Ideal) Variants.none c none i arg1 harg1 arg2 harg2 arg3 harg3 arg4 harg4 arg5 harg5 arg6 harg6 (harg2.unread x1) k0_pay1 k (ix2 r d)
          + (if h : k < 32 then x1 (ix3 (⟨k, h⟩ : Fin 32) r d) else 0) := by
    intro k hk
    have e := st_k0_t1_succ (F := Ideal) Variants.none c none i arg1 harg1 arg2 harg2 arg3 harg3 arg4 harg4 arg5 harg5 arg6 harg6 (harg2.unread x1) k0_pay1 ⟨k, by rw [trips_eq]; exact hk⟩
    rw [show k + 1 = (⟨k, by rw [trips_eq]; exact hk⟩ : Fin k0_t1_loop.trips).val + 1 from rfl, e, trip_eq, pay2_apply, slab_apply, dif_pos hk]
  have h0 : st_k0_t1 (F := Ideal) Variants.none c none i arg1 harg1 arg2 harg2 arg3 harg3 arg4 harg4 arg5 harg5 arg6 harg6 (harg2.unread x1) k0_pay1 0 (ix2 r d) = 0 := by
    show k0_pay1 (F := Ideal) (ix2 r d) = 0
    unfold k0_pay1
    show Ideal.ofBits .f32 0x00000000#32 = 0
    exact Ideal.ofBits_zero_f32
  refine (steps_eq_sum
    (fun n => st_k0_t1 (F := Ideal) Variants.none c none i arg1 harg1 arg2 harg2 arg3 harg3 arg4 harg4 arg5 harg5 arg6 harg6 (harg2.unread x1) k0_pay1 n (ix2 r d))
    (fun k => if h : k < 32 then x1 (ix3 (⟨k, h⟩ : Fin 32) r d) else 0) 32 h0 hstep 32 (le_refl _)).trans ?_
  rw [Finset.sum_range]
  exact Finset.sum_congr rfl fun k _ => dif_pos k.isLt

end Cert.KernelIdeal.NeighbourSum

end
-- ==== Proof.TilePayload.lean ====
/-
  The arithmetic of one tile, at an entry. With the tile's node block x : [1000, 128], its summed neighbour block
  s : [1000, 128], the two weight matrices A, B : [128, 128] (contraction axis first) and the bias row β : [1, 128],
  the body stores x·A + s·B + β (the bias row repeated down the tile): at (r, q),

      (∑ d, x[r, d] · A[d, q] + ∑ d, s[r, d] · B[d, q]) + β[0, q].

  The two roundings to bf16 on the way into the matrix unit are the identity on extended reals, and a matrix
  product into a zero accumulator is the plain sum over the contracted axis.
-/
import proofs.«136095_j65068754534511_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TilePayload

open Cert.KernelIdeal Cert.KernelIdeal.Gen Idealize.ShloMosaic Idealize.ShloMosaic.TcCoe Idealize.SL.Sem
open Idealize.ShloMosaic.ValueIdx

theorem lhs_row (i : S1000x128.Idx) (κ : dot_S1000x128_S128x128_S1000x128_1_0_0_1_n_n.contr.Idx) :
    (dot_S1000x128_S128x128_S1000x128_1_0_0_1_n_n.lhsIdx i κ 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl

theorem rhs_col (i : S1000x128.Idx) (κ : dot_S1000x128_S128x128_S1000x128_1_0_0_1_n_n.contr.Idx) :
    (dot_S1000x128_S128x128_S1000x128_1_0_0_1_n_n.rhsIdx i κ 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A [1000, 128] × [128, 128] product into the zero accumulator, at (r, q): the sum over the contracted axis. -/
theorem matmul_tile_apply (a : FVec Ideal S1000x128 .bf16) (w : FVec Ideal S128x128 .bf16) (r : Fin 1000) (q : Fin 128) :
    matmul dot_S1000x128_S128x128_S1000x128_1_0_0_1_n_n none a w (constant S1000x128 .f32 0x00000000#32) (ix2 r q)
      = ∑ d : Fin 128, a (ix2 r d) * w (ix2 d q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r q) ((contrEquiv1 dot_S1000x128_S128x128_S1000x128_1_0_0_1_n_n 128 rfl rfl).symm k) = ix2 r k := funext fun a => Fin.ext (by
    match a with
    | ⟨0, _⟩ => exact lhs_row _ _
    | ⟨1, _⟩ => exact (dot_S1000x128_S128x128_S1000x128_1_0_0_1_n_n.lhsIdx_val_of_single rfl _ _).trans hk)
  have er : dot_S1000x128_S128x128_S1000x128_1_0_0_1_n_n.rhsIdx (ix2 r q) ((contrEquiv1 dot_S1000x128_S128x128_S1000x128_1_0_0_1_n_n 128 rfl rfl).symm k) = ix2 k q := funext fun a => Fin.ext (by
    match a with
    | ⟨0, _⟩ => exact (dot_S1000x128_S128x128_S1000x128_1_0_0_1_n_n.rhsIdx_val_of_single rfl _ _).trans hk
    | ⟨1, _⟩ => exact rhs_col _ _)
  rw [el, er]

/-- THE TILE'S STORED VALUE at (r, q). -/
theorem pay3_apply (v2 : FVec Ideal S1000x128 .f32) (v3 : Vec Ideal S1000x128 .f32) (v5 v9 : Vec Ideal S128x128 .bf16)
    (v12 : Vec Ideal S1x128 .f32) (r : Fin 1000) (q : Fin 128) :
    k0_pay3 v2 v3 v5 v9 v12 (ix2 r q)
      = (∑ d : Fin 128, v3 (ix2 r d) * v5 (ix2 d q) + ∑ d : Fin 128, v2 (ix2 r d) * v9 (ix2 d q)) + v12 (ix2 (0 : Fin 1) q) := by
  unfold k0_pay3
  simp only [shapeCast_self]
  rw [addf_apply, addf_apply, matmul_tile_apply, matmul_tile_apply, broadcastTo_1b_ab_apply]
  rfl

end Cert.KernelIdeal.TilePayload

end
-- ==== Proof.TileValue.lean ====
/-
  What the body leaves in the output tile, as a function of the tile's input blocks. The body makes one store, of
  the whole [1000, 128] tile, so the tile holds that store's value: with x the node block, n the neighbour block
  [32, 1000, 128], A and B the two weight matrices and β the bias row, at (r, q)

      (∑ d, x[r, d] · A[d, q] + ∑ d, (∑ k, n[k, r, d]) · B[d, q]) + β[0, q].
-/
import proofs.«136095_j65068754534511_2_alg».proof.Proof.Gen.KernelIdeal.Frame
import proofs.«136095_j65068754534511_2_alg».proof.Proof.NeighbourSum
import proofs.«136095_j65068754534511_2_alg».proof.Proof.TilePayload
import Idealize.ShloMosaic.Lib.Pipeline.Value
import Idealize.ShloMosaic.Lib.Tactic

noncomputable section

namespace Cert.KernelIdeal.TileValue

open Cert.KernelIdeal Cert.KernelIdeal.Gen Idealize.ShloMosaic Idealize.ShloMosaic.TcCoe Idealize.SL.Sem Idealize.ShloMosaic.Tactic
open Idealize.ShloMosaic.ValueIdx

theorem hz : (![0, 0] : Fin 2 → Nat) = fun _ => 0 := funext fun a => by fin_cases a <;> rfl

variable {F : FTy → Type} [FloatOps F]

/-- The tile after the body is the body's one stored value, computed from the loop's result and the four blocks
    the body loads whole. -/
theorem out_eq (c : Dev nD) (i : grid0.Coords) (arg1 : Memref sig .tc .vmem S1000x128 .f32) (harg1 : arg1.IsWhole) (arg2 : Memref sig .tc .vmem S32x1000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1000x128 .f32) (harg6 : arg6.IsWhole)
    (x0 : Vec F S1000x128 .f32) (x1 : Vec F S32x1000x128 .f32) (x2 : Vec F S128x128 .bf16) (x3 : Vec F S128x128 .bf16) (x4 : Vec F S1x128 .f32) :
    out0_A_5 (F := F) c i arg1 harg1 arg2 harg2 arg3 harg3 arg4 harg4 arg5 harg5 arg6 harg6 x0 x1 x2 x3 x4
      = k0_pay3 (st_k0_t1 (F := F) Variants.none c none i arg1 harg1 arg2 harg2 arg3 harg3 arg4 harg4 arg5 harg5 arg6 harg6 (harg2.unread x1) k0_pay1 32) x0 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  try sl_unfold_words
  rw [View.canon_unit_zero hz]
  simp only [View.readAt_eq_ld, harg1.read_unread, harg3.read_unread, harg4.read_unread, harg5.read_unread,
    View.ld_unit_zero (S := S1000x128) hz, View.ld_unit_zero (S := S128x128) hz, View.ld_unit_zero (S := S1x128) hz]
  rfl

/-- THE TILE AT AN ENTRY, over extended reals. -/
theorem tile_apply (c : Dev nD) (i : grid0.Coords) (arg1 : Memref sig .tc .vmem S1000x128 .f32) (harg1 : arg1.IsWhole) (arg2 : Memref sig .tc .vmem S32x1000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1000x128 .f32) (harg6 : arg6.IsWhole)
    (x0 : Vec Ideal S1000x128 .f32) (x1 : Vec Ideal S32x1000x128 .f32) (x2 : Vec Ideal S128x128 .bf16) (x3 : Vec Ideal S128x128 .bf16) (x4 : Vec Ideal S1x128 .f32)
    (r : Fin 1000) (q : Fin 128) :
    out0_A_5 (F := Ideal) c i arg1 harg1 arg2 harg2 arg3 harg3 arg4 harg4 arg5 harg5 arg6 harg6 x0 x1 x2 x3 x4 (ix2 r q)
      = (∑ d : Fin 128, x0 (ix2 r d) * x2 (ix2 d q) + ∑ d : Fin 128, (∑ k : Fin 32, x1 (ix3 k r d)) * x3 (ix2 d q))
        + x4 (ix2 (0 : Fin 1) q) := by
  rw [out_eq, TilePayload.pay3_apply]
  refine congrArg (· + x4 (ix2 (0 : Fin 1) q)) (congrArg (∑ d : Fin 128, x0 (ix2 r d) * x2 (ix2 d q) + ·)
    (Finset.sum_congr rfl fun d _ => ?_))
  rw [NeighbourSum.loop_apply c i arg1 harg1 arg2 harg2 arg3 harg3 arg4 harg4 arg5 harg5 arg6 harg6 x1 r d]

end Cert.KernelIdeal.TileValue

end
-- ==== Proof.Spec.lean ====
/-
  The common value of the two programs, and the one algebraic law that joins their arrangements.

  With v : [N, D], nb : [K, N, D], W : [O, 2D] = [Wv | Wu], b : [O]  (N = 50000, K = 32, D = O = 128), the result at
  (p, q) is, in the arrangement that sums one term per neighbour,

      ∑ k, ((∑ d, v[p, d] · Wv[q, d] + b[q]) + ∑ d, nb[k, p, d] · Wu[q, d]).

  The other arrangement first sums the neighbours and scales the node part by the number of neighbours,

      (∑ d, v[p, d] · (Wv[q, d] · 32) + ∑ d, (∑ k, nb[k, p, d]) · Wu[q, d]) + b[q] · 32,

  and the two agree when every entry is a real number: the node part does not depend on k, so its K copies are K
  times it, and the neighbour part is linear in nb, so the two sums commute. On the extended reals this needs the
  entries finite (distributivity fails at the infinities), which is why the law is proved on ℝ and transported.
-/
import Idealize.ShloMosaic.PureOps.Ideal
import Idealize.ShloMosaic.PureOps.Ideal.Laws
import Idealize.ShloMosaic.Lib.ValueIdx

noncomputable section

namespace Cert.Agg

open Idealize.ShloMosaic Idealize.ShloMosaic.ValueIdx

/-- Column d of the left half of W (the weights of the node's own features). -/
def colV (d : Fin 128) : Fin 256 := ⟨d.val, by have := d.isLt; omega⟩
/-- Column d of the right half of W (the weights of a neighbour's features). -/
def colU (d : Fin 128) : Fin 256 := ⟨128 + d.val, by have := d.isLt; omega⟩

/-- The result at (p, q), one term per neighbour: the affine image of the node's features, shared by all the
    neighbours, plus the linear image of neighbour k's features, summed over k. -/
def perEdge (v : (⟨2, ![50000, 128]⟩ : Shape).Idx → EReal) (nb : (⟨3, ![32, 50000, 128]⟩ : Shape).Idx → EReal)
    (W : (⟨2, ![128, 256]⟩ : Shape).Idx → EReal) (b : (⟨1, ![128]⟩ : Shape).Idx → EReal) (p : Fin 50000) (q : Fin 128) : EReal :=
  ∑ k : Fin 32, ((∑ d : Fin 128, v (ix2 p d) * W (ix2 q (colV d)) + b (ix1 q))
    + ∑ d : Fin 128, nb (ix3 k p d) * W (ix2 q (colU d)))

/-- The same as an array over [N, O]. -/
def perEdgeArr (v : (⟨2, ![50000, 128]⟩ : Shape).Idx → EReal) (nb : (⟨3, ![32, 50000, 128]⟩ : Shape).Idx → EReal)
    (W : (⟨2, ![128, 256]⟩ : Shape).Idx → EReal) (b : (⟨1, ![128]⟩ : Shape).Idx → EReal) :
    (⟨2, ![50000, 128]⟩ : Shape).Idx → EReal :=
  fun i => perEdge v nb W b ⟨(i 0).val, (i 0).isLt⟩ ⟨(i 1).val, (i 1).isLt⟩

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on the reals: K copies of a term that does not depend on k are K times it, and a sum over k
    passes through the product with a factor that does not depend on k. -/
theorem real_law (a w u : Fin 128 → ℝ) (n : Fin 32 → Fin 128 → ℝ) (β : ℝ) :
    (∑ d, a d * (w d * 32) + ∑ d, (∑ k, n k d) * u d) + β * 32
      = ∑ k : Fin 32, ((∑ d, a d * w d + β) + ∑ d, n k d * u d) := by
  rw [Finset.sum_add_distrib, Finset.sum_const, Finset.card_univ, Fintype.card_fin, nsmul_eq_mul, Finset.sum_comm]
  simp only [Finset.sum_mul, ← mul_assoc]
  rw [← Finset.sum_mul]
  push_cast
  ring

/-- The law on the extended reals, for finite entries. -/
theorem ereal_law (a w u : Fin 128 → EReal) (n : Fin 32 → Fin 128 → EReal) (β : EReal)
    (ha : ∀ d, ∃ r : ℝ, a d = r) (hw : ∀ d, ∃ r : ℝ, w d = r) (hu : ∀ d, ∃ r : ℝ, u d = r)
    (hn : ∀ k d, ∃ r : ℝ, n k d = r) (hβ : ∃ r : ℝ, β = r) :
    (∑ d, a d * (w d * ((32 : ℝ) : EReal)) + ∑ d, (∑ k, n k d) * u d) + β * ((32 : ℝ) : EReal)
      = ∑ k : Fin 32, ((∑ d, a d * w d + β) + ∑ d, n k d * u d) := by
  choose ra hra using ha
  choose rw hrw using hw
  choose ru hru using hu
  choose rn hrn using hn
  obtain ⟨rβ, rfl⟩ := hβ
  simp only [hra, hrw, hru, hrn, ← EReal.coe_mul, ← EReal.coe_add, ← coe_sum]
  exact congrArg _ (real_law ra rw ru rn rβ)

/-- The word of the f32 literal 32.0 denotes the real 32. -/
theorem ofBits_32 : Ideal.ofBits .f32 0x42000000#32 = ((32 : ℝ) : EReal) := by
  simp [Ideal.ofBits, Ideal.ieee, -EReal.coe_mul]; norm_num

end Cert.Agg

end
-- ==== Proof.Blocks.lean ====
/-
  The kernel's input blocks as entries of the argument arrays.

  The grid has 50 points; point t works on rows 1000·t … 1000·t + 999. Its node block is those rows of v, its
  neighbour block those rows of every slab of nb. The three small operands are the same at every point and are
  computed from W and b before the call: the first weight matrix is the left half of W, transposed and scaled by
  32 (so its (d, q) entry is W[q, d] · 32), the second the right half of W transposed (W[q, 128 + d]), and the
  bias row is b · 32 laid out as one row.
-/
import proofs.«136095_j65068754534511_2_alg».proof.Proof.Gen.KernelIdeal.Frame
import proofs.«136095_j65068754534511_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The four argument arrays on core c, as arrays of extended reals. -/
abbrev argV (c : Dev nD) : (⟨2, ![50000, 128]⟩ : Shape).Idx → EReal := m ((c : Thread nD τ).loc main_arg0)
abbrev argN (c : Dev nD) : (⟨3, ![32, 50000, 128]⟩ : Shape).Idx → EReal := m ((c : Thread nD τ).loc main_arg1)
abbrev argW (c : Dev nD) : (⟨2, ![128, 256]⟩ : Shape).Idx → EReal := m ((c : Thread nD τ).loc main_arg2)
abbrev argB (c : Dev nD) : (⟨1, ![128]⟩ : Shape).Idx → EReal := m ((c : Thread nD τ).loc main_arg3)

/-- The f32 literal 32.0, as an extended real. -/
abbrev c32 : EReal := Ideal.ofBits .f32 0x42000000#32

/-- The windows' block indices at point t: the row-tiled windows are at block t, the three small operands at
    block 0 (decided over the 50 points). -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The operands computed before the call -/

/-- The first weight operand: the left half of W, transposed, times 32. -/
theorem V_v5 (c : Dev nD) : (V m c main_v5 : S128x128.Idx → EReal)
    = truncf .bf16 (mulf (transpose S128x128 [1, 0] (extractStridedSlice S128x128 ![0, 0] (argW m c) slices_S128x256_S128x128_0_0) transposes_S128x128_S128x128_1_0)
        (broadcastInDim S128x128 ![] bcast_S_S128x128 (constant (F := Ideal) S_ .f32 0x42000000#32))) bitsLt_bf16_f32 := by
  dsimp only [Gen.V, Gen.hostOps0]; after_results

/-- The second weight operand: the right half of W, transposed. -/
theorem V_v7 (c : Dev nD) : (V m c main_v7 : S128x128.Idx → EReal)
    = truncf (F := Ideal) .bf16 (transpose S128x128 [1, 0] (extractStridedSlice S128x128 ![0, 128] (argW m c) slices_S128x256_S128x128_0_128) transposes_S128x128_S128x128_1_0) bitsLt_bf16_f32 := by
  dsimp only [Gen.V, Gen.hostOps0]; after_results

/-- The bias operand: b times 32, as one row. -/
theorem V_v10 (c : Dev nD) : (V m c main_v10 : S1x128.Idx → EReal)
    = shapeCast S1x128 (mulf (argB m c) (broadcastInDim S128 ![] bcast_S_S128 (constant (F := Ideal) S_ .f32 0x42000000#32))) shapeCasts_S128_S1x128 := by
  dsimp only [Gen.V, Gen.hostOps0]; after_results; rfl

theorem v5_apply (c : Dev nD) (d q : Fin 128) :
    (V m c main_v5 : S128x128.Idx → EReal) (ix2 d q)
      = argW m c (ix2 q (Agg.colV d)) * c32 := by
  rw [V_v5]
  show transpose S128x128 [1, 0] (extractStridedSlice S128x128 ![0, 0] (argW m c) slices_S128x256_S128x128_0_0) transposes_S128x128_S128x128_1_0 (ix2 d q)
      * broadcastInDim S128x128 ![] bcast_S_S128x128 (constant (F := Ideal) S_ .f32 0x42000000#32) (ix2 d q) = _
  rw [transpose_ix2_apply, slice2_axis1_apply 0 _ _ q d (Agg.colV d) (Nat.zero_add _).symm,
    broadcastInDim_apply _ bcast_S_S128x128 _ (ix2 d q) ix0 (fun a => a.elim0)]
  rfl

theorem v7_apply (c : Dev nD) (d q : Fin 128) :
    (V m c main_v7 : S128x128.Idx → EReal) (ix2 d q) = argW m c (ix2 q (Agg.colU d)) := by
  rw [V_v7]
  show transpose S128x128 [1, 0] (extractStridedSlice S128x128 ![0, 128] (argW m c) slices_S128x256_S128x128_0_128) transposes_S128x128_S128x128_1_0 (ix2 d q) = _
  rw [transpose_ix2_apply, slice2_axis1_apply 128 _ _ q d (Agg.colU d) rfl]

theorem v10_apply (c : Dev nD) (q : Fin 128) :
    (V m c main_v10 : S1x128.Idx → EReal) (ix2 (0 : Fin 1) q)
      = argB m c (ix1 q) * c32 := by
  rw [V_v10, shapeCast_a_1a_apply]
  show argB m c (ix1 q) * broadcastInDim S128 ![] bcast_S_S128 (constant (F := Ideal) S_ .f32 0x42000000#32) (ix1 q) = _
  rw [broadcastInDim_apply _ bcast_S_S128 _ (ix1 q) ix0 (fun a => a.elim0)]
  rfl

/-! ## The blocks at a point -/

/-- The node block at point t: rows 1000·t … of v. -/
theorem blk0_apply (c : Dev nD) (t : Fin cfg0.N) (r : Fin 1000) (d : Fin 128) (p : Fin 50000) (hp : p.val = t.val * 1000 + r.val) :
    iblk m c 0 t (ix2 r d) = argV m c (ix2 p d) := by
  show V m c main_arg0 (((cfg0.win 0).blk t).view.emb (ix2 r d)) = _
  rw [V_main_arg0]
  obtain ⟨e0, e1, -⟩ := idx_facts t
  refine congrArg _ (funext fun a => Fin.ext ?_)
  match a with
  | ⟨0, _⟩ => show win0_0.index t (0 : Fin 2) * 1000 + 1 * r.val = p.val; omega
  | ⟨1, _⟩ => show win0_0.index t (1 : Fin 2) * 128 + 1 * d.val = d.val; omega

/-- The neighbour block at point t: the same rows of every slab of nb. -/
theorem blk1_apply (c : Dev nD) (t : Fin cfg0.N) (k : Fin 32) (r : Fin 1000) (d : Fin 128) (p : Fin 50000) (hp : p.val = t.val * 1000 + r.val) :
    iblk m c 1 t (ix3 k r d) = argN m c (ix3 k p d) := by
  show V m c main_arg1 (((cfg0.win 1).blk t).view.emb (ix3 k r d)) = _
  rw [V_main_arg1]
  obtain ⟨-, -, e2, e3, e4, -⟩ := idx_facts t
  refine congrArg _ (funext fun a => Fin.ext ?_)
  match a with
  | ⟨0, _⟩ => show win0_1.index t (0 : Fin 3) * 32 + 1 * k.val = k.val; omega
  | ⟨1, _⟩ => show win0_1.index t (1 : Fin 3) * 1000 + 1 * r.val = p.val; omega
  | ⟨2, _⟩ => show win0_1.index t (2 : Fin 3) * 128 + 1 * d.val = d.val; omega

/-- The first weight block, at every point. -/
theorem blk2_apply (c : Dev nD) (t : Fin cfg0.N) (d q : Fin 128) :
    iblk m c 2 t (ix2 d q) = argW m c (ix2 q (Agg.colV d)) * c32 := by
  show (V m c main_v5 : S128x128.Idx → EReal) (((cfg0.win 2).blk t).view.emb (ix2 d q)) = _
  obtain ⟨-, -, -, -, -, e5, e6, -⟩ := idx_facts t
  have : ((cfg0.win 2).blk t).view.emb (ix2 d q) = ix2 d q := funext fun a => Fin.ext (by
    match a with
    | ⟨0, _⟩ => show win0_2.index t (0 : Fin 2) * 128 + 1 * d.val = d.val; omega
    | ⟨1, _⟩ => show win0_2.index t (1 : Fin 2) * 128 + 1 * q.val = q.val; omega)
  rw [this, v5_apply]

/-- The second weight block, at every point. -/
theorem blk3_apply (c : Dev nD) (t : Fin cfg0.N) (d q : Fin 128) :
    iblk m c 3 t (ix2 d q) = argW m c (ix2 q (Agg.colU d)) := by
  show (V m c main_v7 : S128x128.Idx → EReal) (((cfg0.win 3).blk t).view.emb (ix2 d q)) = _
  obtain ⟨-, -, -, -, -, -, -, e7, e8, -⟩ := idx_facts t
  have : ((cfg0.win 3).blk t).view.emb (ix2 d q) = ix2 d q := funext fun a => Fin.ext (by
    match a with
    | ⟨0, _⟩ => show win0_3.index t (0 : Fin 2) * 128 + 1 * d.val = d.val; omega
    | ⟨1, _⟩ => show win0_3.index t (1 : Fin 2) * 128 + 1 * q.val = q.val; omega)
  rw [this, v7_apply]

/-- The bias row, at every point. -/
theorem blk4_apply (c : Dev nD) (t : Fin cfg0.N) (q : Fin 128) :
    iblk m c 4 t (ix2 (0 : Fin 1) q) = argB m c (ix1 q) * c32 := by
  show (V m c main_v10 : S1x128.Idx → EReal) (((cfg0.win 4).blk t).view.emb (ix2 (0 : Fin 1) q)) = _
  obtain ⟨-, -, -, -, -, -, -, -, -, e9, e10, -⟩ := idx_facts t
  have : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 128 + 1 * q.val = q.val; omega)
  rw [this, v10_apply]

end Cert.KernelIdeal.Blocks

end
-- ==== Proof.KernelValue.lean ====
/-
  The kernel's result array. Point t of the grid writes rows 1000·t … 1000·t + 999 of the output, and what it
  writes at (r, q) is, by the tile's arithmetic and the blocks' contents, the arrangement that sums the neighbours
  first, at row p = 1000·t + r:

      (∑ d, v[p, d] · (W[q, d] · 32) + ∑ d, (∑ k, nb[k, p, d]) · W[q, 128 + d]) + b[q] · 32,

  which for finite entries is the per-neighbour arrangement (the law of the specification). The 50 tiles cover
  the array (row p lies in tile p / 1000), so the whole array ends at the per-neighbour arrangement.
-/
import proofs.«136095_j65068754534511_2_alg».proof.Proof.Gen.KernelIdeal.Value
import proofs.«136095_j65068754534511_2_alg».proof.Proof.TileValue
import proofs.«136095_j65068754534511_2_alg».proof.Proof.Blocks
import proofs.«136095_j65068754534511_2_alg».proof.Proof.Spec
import Idealize.ShloMosaic.Lib.Pipeline.Value

noncomputable section

namespace Cert.KernelIdeal.KernelValue

open Cert.KernelIdeal Cert.KernelIdeal.Gen Cert.KernelIdeal.Value Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every entry of the four argument arrays on core c is a real number. -/
def Finite (c : Dev nD) : Prop :=
  (∀ i, ∃ r : ℝ, argV m c i = r) ∧ (∀ i, ∃ r : ℝ, argN m c i = r) ∧ (∀ i, ∃ r : ℝ, argW m c i = r) ∧ (∀ i, ∃ r : ℝ, argB m c i = r)

/-- The result array: the per-neighbour arrangement of the argument arrays. -/
abbrev result (c : Dev nD) : (⟨2, ![50000, 128]⟩ : Shape).Idx → EReal :=
  Agg.perEdgeArr (argV m c) (argN m c) (argW m c) (argB m c)

/-- WHAT POINT t WRITES BACK is block t of the result. -/
theorem flushed_eq (c : Dev nD) (hfin : Finite m c) (t : Fin cfg0.N) :
    (dats m 0 c).flushed 5 t = ((cfg0.win 5).blk t).view.read (Elt Ideal) (result m c) := by
  rw [flushed5_A]
  funext j
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) j = result m c (((cfg0.win 5).blk t).view.emb j)
  obtain ⟨r, q, rfl⟩ : ∃ (r : Fin 1000) (q : Fin 128), j = ix2 r q := ⟨j 0, j 1, eq_ix2 j⟩
  obtain ⟨-, -, -, -, -, -, -, -, -, -, -, e11, e12⟩ := idx_facts t
  have hN : t.val < 50 := Nat.lt_of_lt_of_eq t.isLt N_0
  obtain ⟨p, hp⟩ : ∃ p : Fin 50000, p.val = t.val * 1000 + r.val := ⟨⟨t.val * 1000 + r.val, by have := r.isLt; omega⟩, rfl⟩
  have hi : ((cfg0.win 5).blk t).view.emb (ix2 r q) = ix2 p q := funext fun a => Fin.ext (by
    match a with
    | ⟨0, _⟩ => show win0_5.index t (0 : Fin 2) * 1000 + 1 * r.val = p.val; omega
    | ⟨1, _⟩ => show win0_5.index t (1 : Fin 2) * 128 + 1 * q.val = q.val; omega)
  rw [hi]
  refine (TileValue.tile_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) r q).trans ?_
  have e0 : ∀ d : Fin 128, iblk m c 0 t (ix2 r d) = argV m c (ix2 p d) := fun d => blk0_apply m c t r d p hp
  have e1 : ∀ (k : Fin 32) (d : Fin 128), iblk m c 1 t (ix3 k r d) = argN m c (ix3 k p d) := fun k d => blk1_apply m c t k r d p hp
  have e2 : ∀ d : Fin 128, iblk m c 2 t (ix2 d q) = argW m c (ix2 q (Agg.colV d)) * c32 := fun d => blk2_apply m c t d q
  have e3 : ∀ d : Fin 128, iblk m c 3 t (ix2 d q) = argW m c (ix2 q (Agg.colU d)) := fun d => blk3_apply m c t d q
  have e4 : iblk m c 4 t (ix2 (0 : Fin 1) q) = argB m c (ix1 q) * c32 := blk4_apply m c t q
  simp only [e0, e1, e2, e3, e4]
  rw [show c32 = ((32 : ℝ) : EReal) from Agg.ofBits_32]
  exact Agg.ereal_law (fun d => argV m c (ix2 p d)) (fun d => argW m c (ix2 q (Agg.colV d))) (fun d => argW m c (ix2 q (Agg.colU d)))
    (fun k d => argN m c (ix3 k p d)) (argB m c (ix1 q)) (fun d => hfin.1 _) (fun d => hfin.2.2.1 _) (fun d => hfin.2.2.1 _)
    (fun k d => hfin.2.1 _) (hfin.2.2.2 _)

/-- An index of the array is in point t's block iff each coordinate is in the block's range on its axis. -/
theorem mem_blk (t : Fin cfg0.N) (i : S50000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v11).slice (win0_5.rect t)).set ↔ _
  rw [View.set_slice_whole, Rect.mem_set_unit]
  exact Iff.rfl

/-- The 50 tiles cover the array: row p lies in tile p / 1000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 1000 :=
    ⟨⟨(i 0).val / 1000, by rw [show cfg0.N = 50 from N_0]; omega⟩, rfl⟩
  obtain ⟨-, -, -, -, -, -, -, -, -, -, -, e11, e12⟩ := idx_facts t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- THE ARRAY after the run is the result. -/
theorem final (c : Dev nD) (hfin : Finite m c) : (dats m 0 c).arrAt 5 cfg0.N = result m c :=
  (dats m 0 c).arrAt_eq_of_cover 5 (result m c) (fun t _ => flushed_eq m c hfin t) cover

/-- THE RUN: every weakly fair execution ends with the result array at the per-neighbour arrangement of the
    arguments, the arguments unchanged. -/
theorem run (hfin : ∀ c, Finite m c) : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hfin c)), (h c).2⟩) (run_blocks m ρ)

end Cert.KernelIdeal.KernelValue

end
-- ==== Proof.RefValue.lean ====
/-
  The reference computes the per-neighbour arrangement: reading its operations one at a time at an entry (p, q),
  the node part is ∑ d, v[p, d] · W[q, d] + b[q] (the slice of W's left half, transposed, under the contraction;
  the bias broadcast along the rows), it is repeated for every neighbour k, the neighbour part
  ∑ d, nb[k, p, d] · W[q, 128 + d] is added, and the result is summed over k from the initial value 0.
-/
import proofs.«136095_j65068754534511_2_alg».proof.Proof.Gen.ReferenceIdeal.Read
import proofs.«136095_j65068754534511_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.TcCoe Idealize.SL.Sem
open Idealize.ShloMosaic.ValueIdx

/-- THE REFERENCE'S RESULT is the per-neighbour arrangement of the argument arrays. -/
theorem ref_eq (x0 : (⟨S50000x128, .f32⟩ : BufTy).Contents (Elt Ideal)) (x1 : (⟨S32x50000x128, .f32⟩ : BufTy).Contents (Elt Ideal))
    (x2 : (⟨S128x256, .f32⟩ : BufTy).Contents (Elt Ideal)) (x3 : (⟨S128, .f32⟩ : BufTy).Contents (Elt Ideal)) :
    val_main_v11 (F := Ideal) x0 x1 x2 x3 = Agg.perEdgeArr x0 x1 x2 x3 := by
  funext i
  obtain ⟨p, q, rfl⟩ : ∃ (p : Fin 50000) (q : Fin 128), i = ix2 p q := ⟨i 0, i 1, eq_ix2 i⟩
  rw [val_main_v11_apply]
  simp only [val_main_v10_apply, val_main_v9_apply, val_main_v7_apply, val_main_v6_apply, val_main_v3_apply,
    val_main_v5_apply, val_main_v4_apply, val_main_v8_apply, val_main_v2_apply, val_main_v0_apply, val_main_v1_apply,
    val_main_cst_apply]
  have h1 : ∀ (k : Fin 32) (d : Fin 128),
      lidx_main_v3 (idx_main_v7 (idx_main_v9 (idx_main_v11 (ix2 p q) k))) d = ix2 p d :=
    fun k d => funext fun a => Fin.ext (by match a with | ⟨0, _⟩ => rfl | ⟨1, _⟩ => rfl)
  have h2 : ∀ (k : Fin 32) (d : Fin 128),
      idx_main_v0 (idx_main_v2 (ridx_main_v3 (idx_main_v7 (idx_main_v9 (idx_main_v11 (ix2 p q) k))) d)) = ix2 q (Agg.colV d) :=
    fun k d => funext fun a => Fin.ext (by match a with | ⟨0, _⟩ => rfl | ⟨1, _⟩ => rfl)
  have h3 : ∀ (k : Fin 32), idx_main_v4 (idx_main_v5 (idx_main_v7 (idx_main_v9 (idx_main_v11 (ix2 p q) k)))) = ix1 q :=
    fun k => funext fun a => Fin.ext (by match a with | ⟨0, _⟩ => rfl)
  have h4 : ∀ (k : Fin 32) (d : Fin 128), lidx_main_v8 (idx_main_v11 (ix2 p q) k) d = ix3 k p d :=
    fun k d => funext fun a => Fin.ext (by match a with | ⟨0, _⟩ => rfl | ⟨1, _⟩ => rfl | ⟨2, _⟩ => rfl)
  have h5 : ∀ (k : Fin 32) (d : Fin 128), idx_main_v1 (ridx_main_v8 (idx_main_v11 (ix2 p q) k) d) = ix2 q (Agg.colU d) :=
    fun k d => funext fun a => Fin.ext (by match a with | ⟨0, _⟩ => rfl | ⟨1, _⟩ => rfl)
  simp only [h1, h2, h3, h4, h5]
  rw [show FloatOps.ofBits (F := Ideal) .f32 0#32 = (0 : EReal) from Ideal.ofBits_zero_f32, zero_add]
  rfl

end Cert.ReferenceIdeal.RefValue

end
-- ==== Proof.Finite.lean ====
/-
  The precondition says every entry of the four arguments has absolute value below +∞; on the extended reals
  that is: every entry is a real number.
-/
import proofs.«136095_j65068754534511_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- An extended real whose absolute value compares below the f32 word of +∞ is a real number. -/
theorem real_of_abs_lt (x : EReal)
    (h : FloatOps.cmpf (F := Ideal) (φ := .f32) .olt (FloatOps.hostAbsf x) (FloatOps.ofBits .f32 0x7F800000#32) = 1#1) :
    ∃ r : ℝ, x = r := by
  have hinf : Ideal.ofBits .f32 0x7F800000#32 = ⊤ := by simp [Ideal.ofBits, Ideal.ieee]
  rw [Ideal.hostAbsf_def, Ideal.cmpf_def, Ideal.absf_def, Ideal.ofBits_def, hinf] at h
  induction x using EReal.rec with
  | bot => simp [Ideal.cmp] at h
  | top => simp [Ideal.cmp] at h
  | coe r => exact ⟨r, rfl⟩

variable [Facts]
open Facts

theorem finite_of_pre (x0 : FVec Ideal S50000x128 .f32) (x1 : FVec Ideal S32x50000x128 .f32) (x2 : FVec Ideal S128x256 .f32) (x3 : FVec Ideal S128 .f32)
    (h : fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h ValueIdx.ix0
  dsimp only [fn, fn_part1] at h0
  obtain ⟨h012, hb⟩ := IntOp.andi_eq_one.mp (show IntOp.andi _ _ = 1#1 from h0)
  obtain ⟨h01, hw⟩ := IntOp.andi_eq_one.mp (show IntOp.andi _ _ = 1#1 from h012)
  obtain ⟨hv, hn⟩ := IntOp.andi_eq_one.mp (show IntOp.andi _ _ = 1#1 from h01)
  exact ⟨fun i => real_of_abs_lt _ (Host.reduce_andi_all _ _ _ _ _ hv i),
    fun i => real_of_abs_lt _ (Host.reduce_andi_all _ _ _ _ _ hn i),
    fun i => real_of_abs_lt _ (Host.reduce_andi_all _ _ _ _ _ hw i),
    fun i => real_of_abs_lt _ (Host.reduce_andi_all _ _ _ _ _ hb i)⟩

end Cert.Pre_finite_inputs.Finite

end
-- ==== Proof.lean ====
/-
  A node aggregator over a graph with a fixed number of neighbours per node. For node features v : [N, D], the
  neighbours' features nb : [K, N, D], a weight matrix W = [Wv | Wu] : [O, 2D] and a bias b : [O]
  (N = 50000, K = 32, D = O = 128), both programs compute, at node p and output feature q,

      ∑ k, ((∑ d, v[p, d] · Wv[q, d] + b[q]) + ∑ d, nb[k, p, d] · Wu[q, d]).

  The reference computes it as written: the node's affine image once, repeated for each neighbour, plus the
  neighbour's linear image, summed over the neighbours. The kernel never forms the [K, N, O] intermediate: on a
  tile of 1000 nodes it first sums the K neighbour slabs, then makes two [1000, 128] × [128, 128] products, with
  Wv scaled by K = 32 and b scaled by 32 beforehand,

      (∑ d, v[p, d] · (Wv[q, d] · 32) + ∑ d, (∑ k, nb[k, p, d]) · Wu[q, d]) + b[q] · 32.

  Over the extended reals the two agree when every entry is finite — K copies of a finite term are K times it,
  and a finite factor distributes over a finite sum — and finiteness is what the precondition gives. The
  roundings to bf16 before the products are the identity on extended reals.

  The modules: Spec (the arrangement and the law), NeighbourSum (the loop over the K slabs), TilePayload and
  TileValue (one tile's stored value), Blocks (the tiles' inputs as entries of the arguments), KernelValue (the
  kernel's result array and its run), RefValue (the reference's result array), Finite (the precondition read as
  finiteness). Here: the frames, and the two runs side by side.
-/
import proofs.«136095_j65068754534511_2_alg».proof.Defs
import proofs.«136095_j65068754534511_2_alg».proof.Proof.Gen.Kernel
import proofs.«136095_j65068754534511_2_alg».proof.Proof.Gen.Kernel.Frame
import proofs.«136095_j65068754534511_2_alg».proof.Proof.Gen.KernelIdeal
import proofs.«136095_j65068754534511_2_alg».proof.Proof.Gen.KernelIdeal.Frame
import proofs.«136095_j65068754534511_2_alg».proof.Proof.Gen.KernelIdeal.Value
import proofs.«136095_j65068754534511_2_alg».proof.Proof.Gen.ReferenceIdeal
import proofs.«136095_j65068754534511_2_alg».proof.Proof.Gen.ReferenceIdeal.Run
import proofs.«136095_j65068754534511_2_alg».proof.Proof.Gen.ReferenceIdeal.Read
import proofs.«136095_j65068754534511_2_alg».proof.Proof.Gen.Pre_finite_inputs
import proofs.«136095_j65068754534511_2_alg».proof.Proof.KernelValue
import proofs.«136095_j65068754534511_2_alg».proof.Proof.RefValue
import proofs.«136095_j65068754534511_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From finite arguments the kernel's result array and the reference's are the same array: the
    per-neighbour arrangement of the arguments. -/
theorem algebraic : Cert.algebraic_KernelIdeal_ReferenceIdeal := by
  intro m ρ m' ρ' hpre hagree
  have hfin : ∀ c, Cert.KernelIdeal.KernelValue.Finite m c := fun c =>
    Cert.Pre_finite_inputs.Finite.finite_of_pre _ _ _ _ (hpre c)
  refine ⟨fun c => Cert.KernelIdeal.KernelValue.result m c, Cert.KernelIdeal.KernelValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
